-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S704512x64 : Shape := ⟨2, ![704512, 64]⟩
abbrev S704512x1 : Shape := ⟨2, ![704512, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S704512x1 : S_.BroadcastsInDim S704512x1 (![] : Fin 0 → Fin S704512x1.rank)
  reducesTo_S704512x1_S_d0_1 : S704512x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S704512x64 32) (main_arg2 : FVec F S704512x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S704512x1 .f32 := Host.absf main_arg2
  let main_cst_0 : FVec F S_ .f32 := constant S_ .f32 0x7F800000#32
  let main_v5 : FVec F S704512x1 .f32 := broadcastInDim S704512x1 ![] bcast_S_S704512x1 main_cst_0
  let main_v6 : IVec S704512x1 1 := cmpf .olt main_v4 main_v5
  let main_c_1 : IVec S_ 1 := constantI S_ 1 1#1
  let main_v7 : IVec S_ 1 := (fun x v => Host.reduce IntOp.andi x v reducesTo_S704512x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S704512x64 : Shape := ⟨2, ![704512, 64]⟩
abbrev S704512x1 : Shape := ⟨2, ![704512, 1]⟩
abbrev S11008 : Shape := ⟨1, ![11008]⟩
abbrev S_ : Shape := ⟨0, ![]⟩
abbrev S11008x4096 : Shape := ⟨2, ![11008, 4096]⟩
abbrev S8192x4096 : Shape := ⟨2, ![8192, 4096]⟩
abbrev S1x11008 : Shape := ⟨2, ![1, 11008]⟩
abbrev S8192x11008 : Shape := ⟨2, ![8192, 11008]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩
abbrev S4x2048x11008 : Shape := ⟨3, ![4, 2048, 11008]⟩

abbrev nBuf : Space → Nat
  | .hbm => 16
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S704512x64, .i32⟩
  | .hbm, ⟨2, _⟩ => ⟨S704512x1, .f32⟩
  | .hbm, ⟨3, _⟩ => ⟨S11008, .f32⟩
  | .hbm, ⟨4, _⟩ => ⟨S704512x64, .f32⟩
  | .hbm, ⟨5, _⟩ => ⟨S_, .f32⟩
  | .hbm, ⟨6, _⟩ => ⟨S704512x64, .f32⟩
  | .hbm, ⟨7, _⟩ => ⟨S704512x64, .f32⟩
  | .hbm, ⟨8, _⟩ => ⟨S704512x64, .f32⟩
  | .hbm, ⟨9, _⟩ => ⟨S704512x64, .f32⟩
  | .hbm, ⟨10, _⟩ => ⟨S11008x4096, .f32⟩
  | .hbm, ⟨11, _⟩ => ⟨S11008x4096, .bf16⟩
  | .hbm, ⟨12, _⟩ => ⟨S8192x4096, .f32⟩
  | .hbm, ⟨13, _⟩ => ⟨S1x11008, .f32⟩
  | .hbm, ⟨14, _⟩ => ⟨S8192x11008, .f32⟩
  | .hbm, ⟨15, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S704512x64 : S_.BroadcastsInDim S704512x64 (![] : Fin 0 → Fin S704512x64.rank)
  bcast_S704512x1_S704512x64_0_1 : S704512x1.BroadcastsInDim S704512x64 (![0, 1] : Fin 2 → Fin S704512x64.rank)
  shapeCasts_S704512x64_S11008x4096 : S704512x64.ShapeCasts S11008x4096
  bitsLt_bf16_f32 : FTy.bits .bf16 < FTy.bits .f32
  shapeCasts_S4x2048x4096_S8192x4096 : S4x2048x4096.ShapeCasts S8192x4096
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x11008.size a
  hwx0_3 : ∀ i : grid0.Coords, EltTy.bits .f32 = 32 ∨ (Rect.block (s := S8192x11008) S512x256.size (cc0_transform_3 i) (hinb0_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v7) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S704512x64 : Shape := ⟨2, ![704512, 64]⟩
abbrev S704512x1 : Shape := ⟨2, ![704512, 1]⟩
abbrev S11008 : Shape := ⟨1, ![11008]⟩
abbrev S_ : Shape := ⟨0, ![]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S704512x64, .i32⟩
  | .hbm, ⟨2, _⟩ => ⟨S704512x1, .f32⟩
  | .hbm, ⟨3, _⟩ => ⟨S11008, .f32⟩
  | .hbm, ⟨4, _⟩ => ⟨S704512x64, .f32⟩
  | .hbm, ⟨5, _⟩ => ⟨S_, .f32⟩
  | .hbm, ⟨6, _⟩ => ⟨S704512x64, .f32⟩
  | .hbm, ⟨7, _⟩ => ⟨S704512x64, .f32⟩
  | .hbm, ⟨8, _⟩ => ⟨S704512x64, .f32⟩
  | .hbm, ⟨9, _⟩ => ⟨S704512x64, .f32⟩
  | .hbm, ⟨10, _⟩ => ⟨S11008x4096, .f32⟩
  | .hbm, ⟨11, _⟩ => ⟨S4x2048x11008, .f32⟩
  | .hbm, ⟨12, _⟩ => ⟨S1x1x11008, .f32⟩
  | .hbm, ⟨13, _⟩ => ⟨S4x2048x11008, .f32⟩
  | .hbm, ⟨14, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S704512x64 : S_.BroadcastsInDim S704512x64 (![] : Fin 0 → Fin S704512x64.rank)
  bcast_S704512x1_S704512x64_0_1 : S704512x1.BroadcastsInDim S704512x64 (![0, 1] : Fin 2 → Fin S704512x64.rank)
  shapeCasts_S704512x64_S11008x4096 : S704512x64.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The function both programs compute, over the extended reals.

  A linear layer: for an activation array `x` of shape [4, 2048, 4096], a weight table `w` of shape [11008, 4096]
  (row `o` holds the 4096 coefficients of output feature `o`) and a bias `b` of length 11008,

      linear x w b (s, t, o) = (Σ_k x (s, t, k) · w (o, k)) + b (o).

  `rows` is the same map with the two leading axes of the activations flattened into one row axis of extent 8192
  and the bias laid out as a [1, 11008] row: the shape in which the tiled matrix product works.
  Nothing here depends on how `w` was obtained; the weights stay an abstract table throughout.
-/
import Idealize.ShloMosaic.PureOps.Ideal
import Idealize.ShloMosaic.Lib.ValueIdx

noncomputable section

namespace Cert.Linear

open Idealize.ShloMosaic Idealize.ShloMosaic.ValueIdx

/-- The linear layer at output position `(s, t, o)`: the inner product of activation row `(s, t)` with weight row `o`,
    plus bias entry `o`. -/
def linear (x : (⟨3, ![4, 2048, 4096]⟩ : Shape).Idx → EReal) (w : (⟨2, ![11008, 4096]⟩ : Shape).Idx → EReal)
    (b : (⟨1, ![11008]⟩ : Shape).Idx → EReal) : (⟨3, ![4, 2048, 11008]⟩ : Shape).Idx → EReal :=
  fun i => (∑ k : Fin 4096, x (ix3 (i 0) (i 1) k) * w (ix2 (i 2) k)) + b (ix1 (i 2))

/-- The same map on flattened rows: entry `(r, o)` is the inner product of row `r` of the [8192, 4096] activations with
    weight row `o`, plus entry `(0, o)` of the bias row. -/
def rows (x : (⟨2, ![8192, 4096]⟩ : Shape).Idx → EReal) (w : (⟨2, ![11008, 4096]⟩ : Shape).Idx → EReal)
    (b : (⟨2, ![1, 11008]⟩ : Shape).Idx → EReal) : (⟨2, ![8192, 11008]⟩ : Shape).Idx → EReal :=
  fun j => (∑ k : Fin 4096, x (ix2 (j 0) k) * w (ix2 (j 1) k)) + b (ix2 (0 : Fin 1) (j 1))

end Cert.Linear

end
-- ==== Proof.Relay.lean ====
/-
  Flattening the two leading axes does not change the linear layer.

  Row `r = 2048·s + t` of the [8192, 4096] re-laying of `x` is row `(s, t)` of `x`; entry `(0, o)` of the [1, 11008]
  re-laying of the bias is entry `o`; entry `(s, t, o)` of the [4, 2048, 11008] re-laying of an [8192, 11008] array is its
  entry `(2048·s + t, o)`; and narrowing the weights to a shorter float format is the identity on the extended reals.
  So `rows` of the re-laid operands, re-laid back, is `linear` of the operands.
-/
import proofs.«179153_j76175539962496_2_alg».proof.Proof.Spec
import Idealize.ShloMosaic.Lib.Pipeline.Value
import Idealize.ShloMosaic.Lib.ValueIdx

noncomputable section

namespace Cert.Linear

open Idealize.ShloMosaic Idealize.ShloMosaic.ValueIdx

/-- `rows` of the flattened activations, the narrowed weights and the bias as a row, un-flattened, is `linear`. -/
theorem rows_relaid
    (hx : (⟨3, ![4, 2048, 4096]⟩ : Shape).ShapeCasts ⟨2, ![8192, 4096]⟩)
    (hb : (⟨1, ![11008]⟩ : Shape).ShapeCasts ⟨2, ![1, 11008]⟩)
    (ho : (⟨2, ![8192, 11008]⟩ : Shape).ShapeCasts ⟨3, ![4, 2048, 11008]⟩)
    (hn : FTy.bits .bf16 < FTy.bits .f32)
    (x : FVec Ideal ⟨3, ![4, 2048, 4096]⟩ .f32) (w : FVec Ideal ⟨2, ![11008, 4096]⟩ .f32) (b : FVec Ideal ⟨1, ![11008]⟩ .f32) :
    shapeCast ⟨3, ![4, 2048, 11008]⟩
        (rows (shapeCast ⟨2, ![8192, 4096]⟩ x hx) (truncf .bf16 w hn) (shapeCast ⟨2, ![1, 11008]⟩ b hb)) ho
      = linear x w b := by
  funext i
  obtain ⟨s, t, o, rfl⟩ : ∃ (s : Fin 4) (t : Fin 2048) (o : Fin 11008), i = ix3 s t o := ⟨i 0, i 1, i 2, eq_ix3 i⟩
  have hs := s.isLt
  have ht := t.isLt
  have hr : s.val * 2048 + t.val < 8192 := by omega
  rw [shapeCast_apply _ ho (ix3 s t o) (ix2 (⟨s.val * 2048 + t.val, hr⟩ : Fin 8192) o) (by
    rw [Shape.rowMajor_val_two, Shape.rowMajor_val_three]
    show (s.val * 2048 + t.val) * 11008 + o.val = (s.val * 2048 + t.val) * 11008 + o.val
    rfl)]
  unfold rows linear
  have ex : ∀ k : Fin 4096, shapeCast (⟨2, ![8192, 4096]⟩ : Shape) x hx (ix2 (⟨s.val * 2048 + t.val, hr⟩ : Fin 8192) k) = x (ix3 s t k) := fun k =>
    shapeCast_apply x hx _ (ix3 s t k) (by
      rw [Shape.rowMajor_val_two, Shape.rowMajor_val_three]
      show (s.val * 2048 + t.val) * 4096 + k.val = (s.val * 2048 + t.val) * 4096 + k.val
      rfl)
  have eb : shapeCast (⟨2, ![1, 11008]⟩ : Shape) b hb (ix2 (0 : Fin 1) o) = b (ix1 o) :=
    shapeCast_apply b hb _ (ix1 o) (by
      rw [Shape.rowMajor_val_two, Shape.rowMajor_val_one]
      show o.val = 0 * 11008 + o.val
      omega)
  show (∑ k : Fin 4096, shapeCast (⟨2, ![8192, 4096]⟩ : Shape) x hx (ix2 (⟨s.val * 2048 + t.val, hr⟩ : Fin 8192) k) * w (ix2 o k))
      + shapeCast (⟨2, ![1, 11008]⟩ : Shape) b hb (ix2 (0 : Fin 1) o)
    = (∑ k : Fin 4096, x (ix3 s t k) * w (ix2 o k)) + b (ix1 o)
  rw [eb]
  exact congrArg (· + b (ix1 o)) (Finset.sum_congr rfl fun k _ => by rw [ex k])

end Cert.Linear

end
-- ==== Proof.Entry.lean ====
/-
  The three arrays the tiled product reads, as the host prepares them before the launch.

  * the activations: the [4, 2048, 4096] argument re-laid as [8192, 4096] (same row-major order);
  * the weights: the integer codes converted to floats, divided by 7, scaled row by row by the per-row factor,
    re-laid from [704512, 64] to [11008, 4096], then narrowed to a shorter float format;
  * the bias: the length-11008 argument re-laid as a [1, 11008] row.

  Each is one composed term of the launch contents of the arguments. The weight term before the narrowing is named
  `table` and is never opened: the same term appears, operation for operation, in the reference.
-/
import proofs.«179153_j76175539962496_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The dequantised weight table: code / 7 times the row's scale, re-laid as [11008, 4096]. -/
def table (q : (⟨S704512x64, .i32⟩ : BufTy).Contents (Elt F)) (a : (⟨S704512x1, .f32⟩ : BufTy).Contents (Elt F)) :
    (⟨S11008x4096, .f32⟩ : BufTy).Contents (Elt F) :=
  shapeCast _ (mulf (Host.divf (sitofp .f32 q) (broadcastInDim S704512x64 ![] bcast_S_S704512x64 (constant S_ .f32 0x40E00000#32)))
    (broadcastInDim S704512x64 ![0, 1] bcast_S704512x1_S704512x64_0_1 a)) shapeCasts_S704512x64_S11008x4096

variable (m : (ℓ : Loc nD τ sig) → Buf (Elt F) ℓ)

/-- The activations the launch finds: the first argument re-laid as [8192, 4096]. -/
theorem acts_eq (c : Dev nD) :
    (V m c main_v7 : Vec F S8192x4096 .f32) = shapeCast _ (m ((c : Thread nD τ).loc main_arg0)) shapeCasts_S4x2048x4096_S8192x4096 := by
  show StableHlo.after hostOps0 (fun b => m (c, b)) (Proc.devRef .tc main_v7) = _
  after_results
  rfl

/-- The weights the launch finds: the dequantised table, narrowed. -/
theorem weights_eq (c : Dev nD) :
    (V m c main_v6 : Vec F S11008x4096 .bf16) = truncf .bf16 (table (m ((c : Thread nD τ).loc main_arg1)) (m ((c : Thread nD τ).loc main_arg2))) bitsLt_bf16_f32 := by
  show StableHlo.after hostOps0 (fun b => m (c, b)) (Proc.devRef .tc main_v6) = _
  after_results
  rfl

/-- The bias row the launch finds: the last argument re-laid as [1, 11008]. -/
theorem bias_eq (c : Dev nD) :
    (V m c main_v8 : Vec F S1x11008 .f32) = shapeCast _ (m ((c : Thread nD τ).loc main_arg3)) shapeCasts_S11008_S1x11008 := by
  show StableHlo.after hostOps0 (fun b => m (c, b)) (Proc.devRef .tc main_v8) = _
  after_results
  rfl

end Cert.KernelIdeal.Entry

end
-- ==== Proof.Body.lean ====
/-
  One tile of the product, entry by entry.

  At a grid point the kernel body holds a [512, 4096] tile `a` of activation rows, a [256, 4096] tile `w` of weight
  rows and a [1, 256] tile `b` of the bias row, and stores

      (a · wᵀ) + b   broadcast over the 512 rows.

  Over the extended reals the rounding of `a` to a narrower format is the identity and the product into a zero
  accumulator is the plain sum over the contracted axis, so entry `(p, q)` of the stored tile is
  `(Σ_k a (p, k) · w (q, k)) + b (0, q)`.
-/
import proofs.«179153_j76175539962496_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The operand positions of the tile product at output entry `(p, q)` and contraction position `κ`: the left operand
    is read at row `p`, the right operand at row `q`, both at column `κ`. -/
theorem lhs_row (i : S512x256.Idx) (κ : dot_S512x4096_S256x4096_S512x256_1_1_0_0_n_n.contr.Idx) :
    (dot_S512x4096_S256x4096_S512x256_1_1_0_0_n_n.lhsIdx i κ 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_col (i : S512x256.Idx) (κ : dot_S512x4096_S256x4096_S512x256_1_1_0_0_n_n.contr.Idx) :
    (dot_S512x4096_S256x4096_S512x256_1_1_0_0_n_n.lhsIdx i κ 1).val = (κ ⟨0, by decide⟩).val :=
  dot_S512x4096_S256x4096_S512x256_1_1_0_0_n_n.lhsIdx_val_of_single rfl i κ
theorem rhs_row (i : S512x256.Idx) (κ : dot_S512x4096_S256x4096_S512x256_1_1_0_0_n_n.contr.Idx) :
    (dot_S512x4096_S256x4096_S512x256_1_1_0_0_n_n.rhsIdx i κ 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_col (i : S512x256.Idx) (κ : dot_S512x4096_S256x4096_S512x256_1_1_0_0_n_n.contr.Idx) :
    (dot_S512x4096_S256x4096_S512x256_1_1_0_0_n_n.rhsIdx i κ 1).val = (κ ⟨0, by decide⟩).val :=
  dot_S512x4096_S256x4096_S512x256_1_1_0_0_n_n.rhsIdx_val_of_single rfl i κ

/-- The tile product into a zero accumulator, at entry `(p, q)`: the sum over the 4096 columns of the products of row `p`
    of the left tile with row `q` of the right tile. -/
theorem product_apply (a : FVec Ideal S512x4096 .bf16) (w : FVec Ideal S256x4096 .bf16) (p : Fin 512) (q : Fin 256) :
    matmul dot_S512x4096_S256x4096_S512x256_1_1_0_0_n_n none a w (constant (F := Ideal) S512x256 .f32 0x00000000#32) (ix2 p q)
      = ∑ k : Fin 4096, a (ix2 p k) * w (ix2 q k) := by
  simp only [matmul]
  rw [Ideal.matmul_constant_zero_apply, ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p q) ((ValueIdx.contrEquiv1 dot_S512x4096_S256x4096_S512x256_1_1_0_0_n_n 4096 rfl rfl).symm k) = ix2 p k := funext fun d => Fin.ext (by
    match d with
    | ⟨0, _⟩ => exact lhs_row _ _
    | ⟨1, _⟩ => exact (lhs_col _ _).trans hk)
  have er : dot_S512x4096_S256x4096_S512x256_1_1_0_0_n_n.rhsIdx (ix2 p q) ((ValueIdx.contrEquiv1 dot_S512x4096_S256x4096_S512x256_1_1_0_0_n_n 4096 rfl rfl).symm k) = ix2 q k := funext fun d => Fin.ext (by
    match d with
    | ⟨0, _⟩ => exact rhs_row _ _
    | ⟨1, _⟩ => exact (rhs_col _ _).trans hk)
  rw [el, er]

/-- The bias row broadcast over the 512 rows of the tile, at entry `(p, q)`: entry `(0, q)` of the row. -/
theorem bias_apply (b : FVec Ideal S1x256 .f32) (p : Fin 512) (q : Fin 256) :
    broadcastTo S512x256 b broadcasts_S1x256_S512x256 (ix2 p q) = b (ix2 (0 : Fin 1) q) :=
  broadcastTo_apply b broadcasts_S1x256_S512x256 (ix2 p q) (ix2 (0 : Fin 1) q) (fun d => match d with
    | ⟨0, _⟩ => by show 0 = if (1 : Nat) = 1 then 0 else p.val; rw [if_pos rfl]
    | ⟨1, _⟩ => by show q.val = if (256 : Nat) = 1 then 0 else q.val; rw [if_neg (by decide)])

/-- THE STORED TILE at entry `(p, q)`: the inner product of row `p` of the activation tile with row `q` of the weight
    tile, plus entry `(0, q)` of the bias tile. -/
theorem stored_apply (a : Vec Ideal S512x4096 .f32) (w : Vec Ideal S256x4096 .bf16) (b : Vec Ideal S1x256 .f32) (p : Fin 512) (q : Fin 256) :
    k0_pay1 (F := Ideal) a w b (ix2 p q) = (∑ k : Fin 4096, a (ix2 p k) * w (ix2 q k)) + b (ix2 (0 : Fin 1) q) := by
  unfold k0_pay1
  rw [shapeCast_self, shapeCast_self, shapeCast_self]
  show matmul dot_S512x4096_S256x4096_S512x256_1_1_0_0_n_n none (truncf .bf16 a bitsLt_bf16_f32) w (constant (F := Ideal) S512x256 .f32 0x00000000#32) (ix2 p q)
      + broadcastTo S512x256 b broadcasts_S1x256_S512x256 (ix2 p q) = _
  rw [product_apply, bias_apply]
  rfl

end Cert.KernelIdeal.Tile

end
-- ==== Proof.Blocks.lean ====
/-
  From tiles to the whole [8192, 11008] product.

  The grid has 16 × 43 points; point `t` has row-block `t / 43` and column-block `t % 43`. At that point the kernel
  reads rows `512·(t/43) …` of the activations (all 4096 columns), rows `256·(t%43) …` of the weights (all columns),
  columns `256·(t%43) …` of the bias row, and writes back the [512, 256] tile at block `(t/43, t%43)` of the output.

  Each written tile is the restriction of ONE function of the whole arrays — `Cert.Linear.rows` of the activations,
  weights and bias the launch finds — because entry `(p, q)` of the tile only reads activation row `512·(t/43) + p`,
  weight row `256·(t%43) + q` and bias column `256·(t%43) + q`. The 688 tiles cover every index of the output
  (index `(r, o)` lies in the tile of point `43·(r/512) + o/256`), so after the launch the output array is that function.
-/
import proofs.«179153_j76175539962496_2_alg».proof.Proof.Gen.KernelIdeal.Frame
import proofs.«179153_j76175539962496_2_alg».proof.Proof.Spec
import proofs.«179153_j76175539962496_2_alg».proof.Proof.Body
import Idealize.ShloMosaic.Lib.Pipeline.Value
import Idealize.ShloMosaic.Lib.ValueIdx

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The block each window is on at grid point `t`, decided over the 688 points: the activations follow the row-block
    `t / 43`, the weights and the bias the column-block `t % 43`, the output both. -/
theorem block_of_point : ∀ t : Fin cfg0.N,
      win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43
    ∧ win0_3.index t (0 : Fin 2) = t.val / 43 ∧ win0_3.index t (1 : Fin 2) = t.val % 43 :=
  (by decide +kernel : ∀ t : Fin grid0.N, _)

/-- Entry `(p, k)` of the activation tile at point `t` is the activation array at row `512·(t/43) + p`, column `k`. -/
theorem acts_tile (c : Dev nD) (t : Fin cfg0.N) (p : Fin 512) (k : Fin 4096) (i : S8192x4096.Idx)
    (h0 : (i 0).val = t.val / 43 * 512 + p.val) (h1 : (i 1).val = k.val) :
    (iblk m c 0 t : Vec Ideal S512x4096 .f32) (ix2 p k) = (V m c main_v7 : Vec Ideal S8192x4096 .f32) i := by
  obtain ⟨e0, e1, -, -, -, -, -, -⟩ := block_of_point t
  show (V m c main_v7 : Vec Ideal S8192x4096 .f32) (((cfg0.win 0).blk t).view.emb (ix2 p k)) = (V m c main_v7 : Vec Ideal S8192x4096 .f32) i
  refine congrArg (V m c main_v7 : Vec Ideal S8192x4096 .f32) (funext fun a => Fin.ext ?_)
  match a with
  | ⟨0, _⟩ => show win0_0.index t (0 : Fin 2) * 512 + 1 * p.val = (i 0).val; omega
  | ⟨1, _⟩ => show win0_0.index t (1 : Fin 2) * 4096 + 1 * k.val = (i 1).val; omega

/-- Entry `(q, k)` of the weight tile at point `t` is the weight array at row `256·(t%43) + q`, column `k`. -/
theorem weights_tile (c : Dev nD) (t : Fin cfg0.N) (q : Fin 256) (k : Fin 4096) (i : S11008x4096.Idx)
    (h0 : (i 0).val = t.val % 43 * 256 + q.val) (h1 : (i 1).val = k.val) :
    (iblk m c 1 t : Vec Ideal S256x4096 .bf16) (ix2 q k) = (V m c main_v6 : Vec Ideal S11008x4096 .bf16) i := by
  obtain ⟨-, -, e0, e1, -, -, -, -⟩ := block_of_point t
  show (V m c main_v6 : Vec Ideal S11008x4096 .bf16) (((cfg0.win 1).blk t).view.emb (ix2 q k)) = (V m c main_v6 : Vec Ideal S11008x4096 .bf16) i
  refine congrArg (V m c main_v6 : Vec Ideal S11008x4096 .bf16) (funext fun a => Fin.ext ?_)
  match a with
  | ⟨0, _⟩ => show win0_1.index t (0 : Fin 2) * 256 + 1 * q.val = (i 0).val; omega
  | ⟨1, _⟩ => show win0_1.index t (1 : Fin 2) * 4096 + 1 * k.val = (i 1).val; omega

/-- Entry `(0, q)` of the bias tile at point `t` is the bias row at column `256·(t%43) + q`. -/
theorem bias_tile (c : Dev nD) (t : Fin cfg0.N) (q : Fin 256) (i : S1x11008.Idx)
    (h0 : (i 0).val = 0) (h1 : (i 1).val = t.val % 43 * 256 + q.val) :
    (iblk m c 2 t : Vec Ideal S1x256 .f32) (ix2 (0 : Fin 1) q) = (V m c main_v8 : Vec Ideal S1x11008 .f32) i := by
  obtain ⟨-, -, -, -, e0, e1, -, -⟩ := block_of_point t
  show (V m c main_v8 : Vec Ideal S1x11008 .f32) (((cfg0.win 2).blk t).view.emb (ix2 (0 : Fin 1) q)) = (V m c main_v8 : Vec Ideal S1x11008 .f32) i
  refine congrArg (V m c main_v8 : Vec Ideal S1x11008 .f32) (funext fun a => Fin.ext ?_)
  match a with
  | ⟨0, _⟩ => show win0_2.index t (0 : Fin 2) * 1 + 1 * 0 = (i 0).val; omega
  | ⟨1, _⟩ => show win0_2.index t (1 : Fin 2) * 256 + 1 * q.val = (i 1).val; omega

/-- A stored tile whose operands are the blocks at row-block `R` and column-block `C` of whole arrays `X`, `W`, `B` is
    the block `(R, C)` of `rows X W B`: entry `(p, q)` is `rows X W B` at `(512·R + p, 256·C + q)`. -/
theorem stored_is_rows (X : (⟨2, ![8192, 4096]⟩ : Shape).Idx → EReal) (W : (⟨2, ![11008, 4096]⟩ : Shape).Idx → EReal)
    (B : (⟨2, ![1, 11008]⟩ : Shape).Idx → EReal)
    (a : Vec Ideal S512x4096 .f32) (w : Vec Ideal S256x4096 .bf16) (b : Vec Ideal S1x256 .f32)
    (p : Fin 512) (q : Fin 256) (r : Fin 8192) (o : Fin 11008)
    (ha : ∀ k : Fin 4096, a (ix2 p k) = X (ix2 r k))
    (hw : ∀ k : Fin 4096, w (ix2 q k) = W (ix2 o k))
    (hb : b (ix2 (0 : Fin 1) q) = B (ix2 (0 : Fin 1) o)) :
    k0_pay1 (F := Ideal) a w b (ix2 p q) = Cert.Linear.rows X W B (ix2 r o) := by
  rw [Cert.KernelIdeal.Tile.stored_apply, hb]
  unfold Cert.Linear.rows
  refine congrArg (· + B (ix2 (0 : Fin 1) o)) (Finset.sum_congr rfl fun k _ => ?_)
  rw [ha k, hw k]

/-- WHAT POINT `t` WRITES BACK is the block at `(t/43, t%43)` of `rows` of the arrays the launch finds. -/
theorem flushed_eq (c : Dev nD) (t : Fin cfg0.N) :
    (dats m 0 c).flushed 3 t = ((cfg0.win 3).blk t).view.read (Elt Ideal)
      (Cert.Linear.rows (V m c main_v7 : Vec Ideal S8192x4096 .f32) (V m c main_v6 : Vec Ideal S11008x4096 .bf16) (V m c main_v8 : Vec Ideal S1x11008 .f32)) := by
  show (cfg0.win 3).cut (grid0.coords t) ((dats m 0 c).after 3 t) = _
  rw [after0_3]
  unfold out0_3
  rw [View.canon_unit_zero zero_offsets]
  simp only [View.ld_unit_zero (S := S512x4096) zero_offsets, View.ld_unit_zero (S := S256x4096) zero_offsets, View.ld_unit_zero (S := S1x256) zero_offsets]
  obtain ⟨-, -, -, -, -, -, e0, e1⟩ := block_of_point t
  have hN : cfg0.N = 688 := N_0
  have ht : t.val < 688 := hN ▸ t.isLt
  funext j
  obtain ⟨p, q, rfl⟩ : ∃ (p : Fin 512) (q : Fin 256), j = ix2 p q := ⟨j 0, j 1, eq_ix2 j⟩
  show k0_pay1 (F := Ideal) (iblk m c 0 t) (iblk m c 1 t) (iblk m c 2 t) (ix2 p q)
    = Cert.Linear.rows (V m c main_v7 : Vec Ideal S8192x4096 .f32) (V m c main_v6 : Vec Ideal S11008x4096 .bf16) (V m c main_v8 : Vec Ideal S1x11008 .f32) (((cfg0.win 3).blk t).view.emb (ix2 p q))
  have hr : t.val / 43 * 512 + p.val < 8192 := by have := p.isLt; omega
  have ho : t.val % 43 * 256 + q.val < 11008 := by have := q.isLt; omega
  refine (stored_is_rows (V m c main_v7 : Vec Ideal S8192x4096 .f32) (V m c main_v6 : Vec Ideal S11008x4096 .bf16) (V m c main_v8 : Vec Ideal S1x11008 .f32)
    (iblk m c 0 t) (iblk m c 1 t) (iblk m c 2 t) p q ⟨t.val / 43 * 512 + p.val, hr⟩ ⟨t.val % 43 * 256 + q.val, ho⟩
    (fun k => acts_tile m c t p k _ rfl rfl) (fun k => weights_tile m c t q k _ rfl rfl) (bias_tile m c t q _ rfl rfl)).trans ?_
  refine congrArg (Cert.Linear.rows (V m c main_v7 : Vec Ideal S8192x4096 .f32) (V m c main_v6 : Vec Ideal S11008x4096 .bf16) (V m c main_v8 : Vec Ideal S1x11008 .f32)) (funext fun a => Fin.ext ?_)
  match a with
  | ⟨0, _⟩ => show t.val / 43 * 512 + p.val = win0_3.index t (0 : Fin 2) * 512 + 1 * p.val; omega
  | ⟨1, _⟩ => show t.val % 43 * 256 + q.val = win0_3.index t (1 : Fin 2) * 256 + 1 * q.val; omega

/-- An index of the output array lies in point `t`'s block iff each coordinate lies in the block's range on its axis. -/
theorem mem_block (t : Fin cfg0.N) (i : S8192x11008.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v9).slice (win0_3.rect t)).set ↔ _
  rw [View.set_slice_whole, Rect.mem_set_unit]
  exact Iff.rfl

/-- Every index `(r, o)` of the output lies in the block some point writes back: the point `43·(r/512) + o/256`. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hN : cfg0.N = 688 := N_0
  obtain ⟨t, ht⟩ : ∃ t : Fin cfg0.N, t.val = (i 0).val / 512 * 43 + (i 1).val / 256 :=
    ⟨⟨(i 0).val / 512 * 43 + (i 1).val / 256, hN ▸ (by omega : (i 0).val / 512 * 43 + (i 1).val / 256 < 688)⟩, rfl⟩
  obtain ⟨-, -, -, -, -, -, e0, e1⟩ := block_of_point t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- THE OUTPUT ARRAY after the launch: `rows` of the activations, weights and bias the launch finds. -/
theorem product_eq (c : Dev nD) :
    (dats m 0 c).arrAt 3 cfg0.N
      = Cert.Linear.rows (V m c main_v7 : Vec Ideal S8192x4096 .f32) (V m c main_v6 : Vec Ideal S11008x4096 .bf16) (V m c main_v8 : Vec Ideal S1x11008 .f32) :=
  (dats m 0 c).arrAt_eq_of_cover 3 _ (fun t _ => flushed_eq m c t) covered

end Cert.KernelIdeal.Tiles

end
-- ==== Proof.Whole.lean ====
/-
  The kernel program as a whole computes `linear`.

  After the launch the [8192, 11008] output holds `rows` of the arrays the launch found (the tiles cover it); the one
  host operation after the launch re-lays it as [4, 2048, 11008]. Substituting what the launch found — the activations
  flattened, the dequantised table narrowed, the bias as a row — and un-flattening gives `linear` of the first
  argument, the dequantised table and the last argument.
-/
import proofs.«179153_j76175539962496_2_alg».proof.Proof.Gen.KernelIdeal.Frame
import proofs.«179153_j76175539962496_2_alg».proof.Proof.Spec
import proofs.«179153_j76175539962496_2_alg».proof.Proof.Relay
import proofs.«179153_j76175539962496_2_alg».proof.Proof.Entry
import proofs.«179153_j76175539962496_2_alg».proof.Proof.Blocks
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The program's result in terms of the arguments: the linear layer of the activations, the dequantised weight table
    and the bias. -/
abbrev result (c : Dev nD) : Buf (Elt Ideal) ((c : Thread nD τ).loc main_v10) :=
  Cert.Linear.linear (m ((c : Thread nD τ).loc main_arg0))
    (Cert.KernelIdeal.Entry.table (F := Ideal) (m ((c : Thread nD τ).loc main_arg1)) (m ((c : Thread nD τ).loc main_arg2)))
    (m ((c : Thread nD τ).loc main_arg3))

/-- The result buffer after the host operation that follows the launch: the launch's output array, re-laid. -/
theorem tail_eq (c : Dev nD) :
    Pipeline.afterTail₀ cfgs (dats m) 0 (V0 m) [hostOps1] c main_v10
      = shapeCast _ ((dats m 0 c).arrAt 3 cfg0.N) shapeCasts_S8192x11008_S4x2048x11008 := by
  unfold Pipeline.afterTail₀
  show StableHlo.after hostOps1 _ (Proc.devRef .tc main_v10) = _
  after_results
  exact congrArg (fun y => shapeCast S4x2048x11008 y shapeCasts_S8192x11008_S4x2048x11008)
    (Pipeline.withArrays_arr spec0 launch0.win.arr_inj c _ _ 3)

/-- The result buffer after the whole program is `result`. -/
theorem result_eq (c : Dev nD) :
    Pipeline.afterTail₀ cfgs (dats m) 0 (V0 m) [hostOps1] c main_v10 = result m c := by
  rw [tail_eq, Cert.KernelIdeal.Tiles.product_eq, Cert.KernelIdeal.Entry.acts_eq, Cert.KernelIdeal.Entry.weights_eq, Cert.KernelIdeal.Entry.bias_eq]
  exact Cert.Linear.rows_relaid _ _ _ _ _ _ _

/-- THE RUN: every weakly fair execution of the kernel program terminates with its result at `result` and its argument
    arrays unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefLinear.lean ====
/-
  The reference computes `linear`.

  Its contraction `Σ_k x (s, t, k) · w (o, k)` over the last axis of both operands, plus the bias broadcast over the two
  leading axes, is `linear x w b` with `w` the reference's own weight table (its re-laid, scaled codes), which is left
  unopened.
-/
import proofs.«179153_j76175539962496_2_alg».proof.Proof.Gen.ReferenceIdeal.Read
import proofs.«179153_j76175539962496_2_alg».proof.Proof.Spec
import Idealize.ShloMosaic.Lib.ValueIdx

noncomputable section

namespace Cert.ReferenceIdeal.Hand

open Cert.ReferenceIdeal Cert.ReferenceIdeal.Read Idealize.ShloMosaic Idealize.ShloMosaic.ValueIdx

/-- The reference's result, index by index, is the linear layer of the activations, the reference's weight table and the
    bias. -/
theorem result_is_linear (x : (⟨S4x2048x4096, .f32⟩ : BufTy).Contents (Elt Ideal)) (q : (⟨S704512x64, .i32⟩ : BufTy).Contents (Elt Ideal))
    (a : (⟨S704512x1, .f32⟩ : BufTy).Contents (Elt Ideal)) (b : (⟨S11008, .f32⟩ : BufTy).Contents (Elt Ideal)) :
    val_main_v9 (F := Ideal) x q a b = Cert.Linear.linear x (val_main_v5 (F := Ideal) q a) b := by
  funext i
  have el : ∀ k : Fin 4096, lidx_main_v6 i k = ix3 (i 0) (i 1) k := fun k => funext fun d => Fin.ext (by
    match d with
    | ⟨0, _⟩ => rfl
    | ⟨1, _⟩ => rfl
    | ⟨2, _⟩ => rfl)
  have er : ∀ k : Fin 4096, ridx_main_v6 i k = ix2 (i 2) k := fun k => funext fun d => Fin.ext (by
    match d with
    | ⟨0, _⟩ => rfl
    | ⟨1, _⟩ => rfl)
  have eb : idx_main_v7 (idx_main_v8 i) = ix1 (i 2) := funext fun d => Fin.ext (by
    match d with
    | ⟨0, _⟩ => rfl)
  rw [val_main_v9_apply, val_main_v6_apply, val_main_v8_apply, val_main_v7_apply]
  simp only [el, er, eb]
  rfl

end Cert.ReferenceIdeal.Hand

end
-- ==== Proof.lean ====
/-
  A quantised linear layer, tiled for the matrix unit, against its one-line reference.

  Both programs first dequantise the weights the same way (integer code / 7 times the row's scale, re-laid as an
  [11008, 4096] table `w`); that table is never opened here, it is the same composed term on both sides. The reference
  then contracts the [4, 2048, 4096] activations with `w` over the last axis and adds the bias. The kernel flattens
  the activations to [8192, 4096], narrows `w` to a shorter float format (the identity on the extended reals), and
  computes the [8192, 11008] product tile by tile on a 16 × 43 grid — each [512, 256] tile an inner product over all
  4096 columns into a zero accumulator, plus the matching piece of the bias row — and finally un-flattens the rows.

  Over the extended reals both results are, at `(s, t, o)`, `(Σ_k x (s, t, k) · w (o, k)) + b (o)`: the same sum in the same
  order with the same grouping, so no law of arithmetic beyond re-indexing is used and the finiteness of the inputs is
  never needed.

  Spec      the function `linear` and its flattened form `rows`
  Body      one stored tile, entry by entry
  Blocks    the tiles are the blocks of `rows` of the arrays the launch finds, and cover the output
  Entry     what the launch finds, as terms of the arguments
  Relay     `rows` of the flattened operands, un-flattened, is `linear`
  Whole     the kernel program's run, with its result at `linear`
  RefLinear the reference's result is `linear`
-/
import proofs.«179153_j76175539962496_2_alg».proof.Defs
import proofs.«179153_j76175539962496_2_alg».proof.Proof.Gen.Kernel
import proofs.«179153_j76175539962496_2_alg».proof.Proof.Gen.Kernel.Frame
import proofs.«179153_j76175539962496_2_alg».proof.Proof.Gen.KernelIdeal
import proofs.«179153_j76175539962496_2_alg».proof.Proof.Gen.KernelIdeal.Frame
import proofs.«179153_j76175539962496_2_alg».proof.Proof.Gen.ReferenceIdeal
import proofs.«179153_j76175539962496_2_alg».proof.Proof.Gen.Pre_finite_inputs
import proofs.«179153_j76175539962496_2_alg».proof.Proof.Gen.ReferenceIdeal.Run
import proofs.«179153_j76175539962496_2_alg».proof.Proof.Gen.ReferenceIdeal.Read
import proofs.«179153_j76175539962496_2_alg».proof.Proof.Whole
import proofs.«179153_j76175539962496_2_alg».proof.Proof.RefLinear
import Idealize.ShloMosaic.Adequacy
import Idealize.ShloMosaic.Init

noncomputable section

namespace Cert.Proof

open Idealize.ShloMosaic Idealize.SL.Sem

/-- The word-level kernel program runs, and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the four arguments, both programs end with the linear layer of the activations, the
    dequantised table and the bias: the kernel's result by its run, the reference's by its run read index by index; the two
    dequantised tables are one composed term of the same two arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Hand.result_is_linear,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
